-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S1x2048x1024 : Shape := ⟨3, ![1, 2048, 1024]⟩
abbrev S1x512x1024 : Shape := ⟨3, ![1, 512, 1024]⟩
abbrev S2048x1024 : Shape := ⟨2, ![2048, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S4x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S2048x1024, .bf16⟩
  | .local _ .vmem, ⟨8, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x1024_S1024x1024_1_0 : S1024x1024.Transposes [1, 0] S1024x1024
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x512x1024 : 0 < S1x512x1024.numel
  shapeCasts_S1x512x1024_S512x1024 : S1x512x1024.ShapeCasts S512x1024
  reduces_S512x2048_S512 : S512x2048.Reduces [1] S512
  shapeCasts_S512_S512x1 : S512.ShapeCasts S512x1
  broadcasts_S512x1_S512x2048 : S512x1.Broadcasts S512x2048
  inb_S1x512x1024_S1x512x1024_0_0_0 : ∀ a, (![0, 0, 0] : Fin 3 → Nat) a + S1x512x1024.size a ≤ S1x512x1024.size a
  shapeCasts_S512x1024_S1x512x1024 : S512x1024.ShapeCasts S1x512x1024
  dot_S2048x1024_S1024x1024_S2048x1024_1_0_0_1_n_n_wf : DotDims.WF S2048x1024 S1024x1024 S2048x1024 [1] [0] [0] [1] [] []
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .f32 = 32 ∨ (Rect.block (s := S4x2048x1024) S1x512x1024.size (cc0_transform_4 i) (hinb0_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Cases.lean ====
/-
  What one grid point's body leaves behind, as values.

  At the first query tile of a batch the body stores the key and the value projections of the whole batch block into the
  two kept buffers (one covering store each), reads them back, and stores the tile's attention block; at the other
  tiles it stores nothing into the kept buffers and computes the tile from what they hold. Each buffer ends at its one
  covering store's payload; a load through the whole buffer reads its contents, a load of what was just stored reads
  the stored payload, and the tile's query rows are the rows of the batch block at the tile's offset.
-/
import proofs.«173278_j37452114821624_2_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.ShloMosaic.Tactic
open Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile's query rows: the 512 rows of the batch block that start at the tile's row offset. -/
abbrev qRows (i : grid0.Coords) (x0 : Vec F S1x2048x1024 .f32) : Vec F S1x512x1024 .f32 :=
  View.ld x0 (Rect.unit (k0_off1 i) S1x512x1024.size (k0_off1_inb i))

/-- First tile of a batch: the first kept buffer ends at the key projection of the batch block. -/
theorem kept_K (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i) (x0 : Vec F S1x2048x1024 .f32) (x1 : Vec F S1024x1024 .bf16) (x2 : Vec F S1024x1024 .bf16) (x3 : Vec F S1024x1024 .bf16) :
    sout0_A_0 c i arg2 harg2 arg3 harg3 arg4 harg4 arg5 harg5 arg6 harg6 arg7 harg7 arg8 harg8 hc0 x0 x1 x2 x3 = k0_pay2 x0 x2 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  try sl_unfold_run_names
  rw [View.canon_unit_zero hz2]
  simp only [View.readAt_eq_ld, harg2.read_unread, harg4.read_unread, View.ld_unit_zero (S := S1x2048x1024) hz3,
    View.ld_unit_zero (S := S1024x1024) hz2]

/-- First tile of a batch: the second kept buffer ends at the value projection of the batch block. -/
theorem kept_V (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i) (x0 : Vec F S1x2048x1024 .f32) (x1 : Vec F S1024x1024 .bf16) (x2 : Vec F S1024x1024 .bf16) (x3 : Vec F S1024x1024 .bf16) :
    sout0_A_1 c i arg2 harg2 arg3 harg3 arg4 harg4 arg5 harg5 arg6 harg6 arg7 harg7 arg8 harg8 hc0 x0 x1 x2 x3 = k0_pay3 x0 x3 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  try sl_unfold_run_names
  rw [View.canon_unit_zero hz2]
  simp only [View.readAt_eq_ld, harg2.read_unread, harg5.read_unread, View.ld_unit_zero (S := S1x2048x1024) hz3,
    View.ld_unit_zero (S := S1024x1024) hz2]

/-- A later tile: the output block is the tile's payload of its query rows, the query weights and what the kept
    buffers hold. -/
theorem tile_B (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (hc0 : ¬cond0_0 i) (x0 : Vec F S1x2048x1024 .f32) (x1 : Vec F S1024x1024 .bf16) (x2 : Vec F S1024x1024 .bf16) (x3 : Vec F S1024x1024 .bf16) (xs0 : Vec F S2048x1024 .bf16) (xs1 : Vec F S2048x1024 .bf16) :
    out0_B_4 c i arg2 harg2 arg3 harg3 arg4 harg4 arg5 harg5 arg6 harg6 arg7 harg7 arg8 harg8 hc0 x0 x1 x2 x3 xs0 xs1 = k0_pay4 (qRows i x0) x1 xs0 xs1 := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  try sl_unfold_run_names
  rw [View.canon_unit_zero hz3]
  simp only [View.readAt_eq_ld, harg2.read_unread, harg3.read_unread, harg7.read_unread, harg8.read_unread,
    View.ld_unit_zero (S := S1024x1024) hz2, View.ld_unit_zero (S := S2048x1024) hz2]
  all_goals rfl

/-- The first tile: the same payload, over the two projections it has just stored and read back. -/
theorem tile_A (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i) (x0 : Vec F S1x2048x1024 .f32) (x1 : Vec F S1024x1024 .bf16) (x2 : Vec F S1024x1024 .bf16) (x3 : Vec F S1024x1024 .bf16) :
    out0_A_4 c i arg2 harg2 arg3 harg3 arg4 harg4 arg5 harg5 arg6 harg6 arg7 harg7 arg8 harg8 hc0 x0 x1 x2 x3 = k0_pay4 (qRows i x0) x1 (k0_pay2 x0 x2) (k0_pay3 x0 x3) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_run_names
  rw [View.canon_unit_zero hz3]
  rw [View.readCov_unit_zero (S := S2048x1024) _ hz2, View.readCov_unit_zero (S := S2048x1024) _ hz2]
  simp only [View.readAt_eq_ld, harg2.read_unread, harg3.read_unread, harg4.read_unread, harg5.read_unread,
    View.ld_unit_zero (S := S1x2048x1024) hz3, View.ld_unit_zero (S := S1024x1024) hz2]
  all_goals rfl

end Cert.KernelIdeal.Cases

end
-- ==== Proof.Spec.lean ====
/-
  Single-head self-attention over a batch, index by index, on the extended reals.

  For an input x : [4, 2048, 1024] and three weight matrices w : [1024, 1024] (row k of w is the k-th output
  feature), the projections are  proj x w b n k = ∑_d x[b,n,d] · w[k,d].  With q, k, v the projections by the
  query, key and value weights, the score of query row q against key row n is  (∑_k q[b,q,k] · k[b,n,k]) · s
  with s the scale word (1/32), the row maximum m[b,q] is the maximum over n started from -∞, the
  unnormalized weight is exp (score - m), the normalizer its sum over n, and the result is
  ∑_n (e[b,q,n] / l[b,q]) · v[b,n,k].  Nothing here needs the inputs finite: both programs are this very
  expression, term for term, and only differ in how the sums and the maximum are spelt.
-/
import Idealize.ShloMosaic.PureOps.Ideal
import Idealize.ShloMosaic.Lib.ValueIdx

noncomputable section

namespace Cert.Attn

open Idealize.ShloMosaic Idealize.ShloMosaic.ValueIdx

/-- The batch of sequences, and a weight matrix. -/
abbrev SX : Shape := ⟨3, ![4, 2048, 1024]⟩
abbrev SW : Shape := ⟨2, ![1024, 1024]⟩

/-- The score scale, the word of 2⁻⁵; the maximum's start, the word of -∞. Both programs carry the same words, so
    neither is ever evaluated. -/
abbrev scale : EReal := Ideal.ofBits .f32 0x3D000000#32
abbrev negInf : EReal := Ideal.ofBits .f32 0xFF800000#32

/-- Row `n` of batch `b` projected on output feature `k`: the inner product of x[b,n,·] with w[k,·]. -/
def proj (x : SX.Idx → EReal) (w : SW.Idx → EReal) (b : Fin 4) (n : Fin 2048) (k : Fin 1024) : EReal :=
  ∑ d : Fin 1024, x (ix3 b n d) * w (ix2 k d)

/-- The scaled score of query row `q` against key row `n`. -/
def score (x : SX.Idx → EReal) (wq wk : SW.Idx → EReal) (b : Fin 4) (q n : Fin 2048) : EReal :=
  (∑ k : Fin 1024, proj x wq b q k * proj x wk b n k) * scale

/-- The largest score of a query row, the maximum started from -∞. -/
def rowMax (x : SX.Idx → EReal) (wq wk : SW.Idx → EReal) (b : Fin 4) (q : Fin 2048) : EReal :=
  (Finset.univ : Finset (Fin 2048)).fold max negInf (fun n => score x wq wk b q n)

/-- The unnormalized softmax weight. -/
def expo (x : SX.Idx → EReal) (wq wk : SW.Idx → EReal) (b : Fin 4) (q n : Fin 2048) : EReal :=
  Ideal.exp (score x wq wk b q n - rowMax x wq wk b q)

/-- The softmax normalizer of a query row. -/
def denom (x : SX.Idx → EReal) (wq wk : SW.Idx → EReal) (b : Fin 4) (q : Fin 2048) : EReal :=
  ∑ n : Fin 2048, expo x wq wk b q n

/-- The softmax weight of key row `n` for query row `q`. -/
def weight (x : SX.Idx → EReal) (wq wk : SW.Idx → EReal) (b : Fin 4) (q n : Fin 2048) : EReal :=
  Ideal.div (expo x wq wk b q n) (denom x wq wk b q)

/-- Attention at (b, q, k): the weighted sum of the value rows. -/
def attnAt (x : SX.Idx → EReal) (wq wk wv : SW.Idx → EReal) (b : Fin 4) (q : Fin 2048) (k : Fin 1024) : EReal :=
  ∑ n : Fin 2048, weight x wq wk b q n * proj x wv b n k

/-- The whole result array. -/
def attn (x : SX.Idx → EReal) (wq wk wv : SW.Idx → EReal) : SX.Idx → EReal :=
  fun i => attnAt x wq wk wv ⟨(i 0).val, (i 0).isLt⟩ ⟨(i 1).val, (i 1).isLt⟩ ⟨(i 2).val, (i 2).isLt⟩

theorem attn_ix3 (x : SX.Idx → EReal) (wq wk wv : SW.Idx → EReal) (b : Fin 4) (q : Fin 2048) (k : Fin 1024) :
    attn x wq wk wv (ix3 b q k) = attnAt x wq wk wv b q k := rfl

/-- A rank-3 index is determined by its three coordinates. -/
theorem idx3_ext {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (by match d with | ⟨0, _⟩ => exact h0 | ⟨1, _⟩ => exact h1 | ⟨2, _⟩ => exact h2)

/-- A rank-2 index is determined by its two coordinates. -/
theorem idx2_ext {n0 n1 : Nat} (i : (⟨2, ![n0, n1]⟩ : Shape).Idx) (a : Fin n0) (b : Fin n1)
    (h0 : (i 0).val = a.val) (h1 : (i 1).val = b.val) : i = ix2 a b :=
  funext fun d => Fin.ext (by match d with | ⟨0, _⟩ => exact h0 | ⟨1, _⟩ => exact h1)

/-- The maximum started from a value is unchanged by one more maximum with that value. -/
theorem max_fold_self {ι : Type} (s : Finset ι) (a : EReal) (f : ι → EReal) :
    max a (s.fold max a f) = s.fold max a f :=
  max_eq_right ((Finset.le_fold_max a).mpr (Or.inl le_rfl))

end Cert.Attn

end
-- ==== Proof.Blocks.lean ====
/-
  What the grid point's body is handed, read off the argument arrays.

  Point t of the 4 × 4 grid is batch t / 4, query tile t % 4. The input window of x stages the whole sequence of the
  batch; the three weight windows stage the whole transposed weights, which the host wrote before the region by
  transposing each argument (the change of format is the identity), so a staged weight at (d, k) is the argument at
  (k, d); the tile's query rows are rows 512·(t % 4) + r of the batch.
-/
import proofs.«173278_j37452114821624_2_alg».proof.Proof.Gen.KernelIdeal.Frame
import proofs.«173278_j37452114821624_2_alg».proof.Proof.Cases
import proofs.«173278_j37452114821624_2_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.Attn

variable (m : (ℓ : Loc nD τ sig) → Buf (Elt Ideal) ℓ)

/-- The printed index maps and grid coordinates, decided once over the sixteen points. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ ((grid0.coords t) 1).val = t.val % 4 :=
  (by decide +kernel : ∀ t : Fin grid0.N, _)

/-- The batch of a grid point. -/
def batchOf (t : Fin cfg0.N) : Fin 4 := ⟨t.val / 4, by have := t.isLt; have : cfg0.N = 16 := N_0; omega⟩

/-- Row `r` of the query tile of a grid point, as a row of the sequence. -/
def rowOf (t : Fin cfg0.N) (r : Fin 512) : Fin 2048 := ⟨512 * (t.val % 4) + r.val, by have := r.isLt; omega⟩

/-- A staged weight: the host's transpose of the argument (then a change of format), read at an index. -/
theorem wq_apply (c : Dev nD) (d k : Fin 1024) :
    V m c main_v1 (ix2 d k) = m ((c : Thread nD τ).loc main_arg1) (ix2 k d) := by
  dsimp only [Gen.V, Gen.hostOps0]
  after_results
  exact transpose_ix2_apply _ _ d k

theorem wk_apply (c : Dev nD) (d k : Fin 1024) :
    V m c main_v3 (ix2 d k) = m ((c : Thread nD τ).loc main_arg2) (ix2 k d) := by
  dsimp only [Gen.V, Gen.hostOps0]
  after_results
  exact transpose_ix2_apply _ _ d k

theorem wv_apply (c : Dev nD) (d k : Fin 1024) :
    V m c main_v5 (ix2 d k) = m ((c : Thread nD τ).loc main_arg3) (ix2 k d) := by
  dsimp only [Gen.V, Gen.hostOps0]
  after_results
  exact transpose_ix2_apply _ _ d k

/-- The staged block of x at point `t` is the sequence of batch `t / 4`. -/
theorem xblk_apply (c : Dev nD) (t : Fin cfg0.N) (u : Fin 1) (n : Fin 2048) (d : Fin 1024) :
    iblk m c 0 t (ix3 u n d) = m ((c : Thread nD τ).loc main_arg0) (ix3 (batchOf t) n d) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * u.val = t.val / 4; have := u.isLt; omega
  | ⟨1, _⟩ => show win0_0.index t (1 : Fin 3) * 2048 + 1 * n.val = n.val; omega
  | ⟨2, _⟩ => show win0_0.index t (2 : Fin 3) * 1024 + 1 * d.val = d.val; omega

/-- The three weight blocks are the whole staged arrays. -/
theorem wqblk_apply (c : Dev nD) (t : Fin cfg0.N) (d k : Fin 1024) :
    iblk m c 1 t (ix2 d k) = m ((c : Thread nD τ).loc main_arg1) (ix2 k d) := by
  obtain ⟨-, -, -, e0, e1, -⟩ := idx_facts t
  unfold iblk
  rw [View.read_apply]
  show V m c main_v1 _ = _
  refine (congrArg _ (funext fun a => Fin.ext ?_)).trans (wq_apply m c d k)
  match a with
  | ⟨0, _⟩ => show win0_1.index t (0 : Fin 2) * 1024 + 1 * d.val = d.val; omega
  | ⟨1, _⟩ => show win0_1.index t (1 : Fin 2) * 1024 + 1 * k.val = k.val; omega

theorem wkblk_apply (c : Dev nD) (t : Fin cfg0.N) (d k : Fin 1024) :
    iblk m c 2 t (ix2 d k) = m ((c : Thread nD τ).loc main_arg2) (ix2 k d) := by
  obtain ⟨-, -, -, -, -, e0, e1, -⟩ := idx_facts t
  unfold iblk
  rw [View.read_apply]
  show V m c main_v3 _ = _
  refine (congrArg _ (funext fun a => Fin.ext ?_)).trans (wk_apply m c d k)
  match a with
  | ⟨0, _⟩ => show win0_2.index t (0 : Fin 2) * 1024 + 1 * d.val = d.val; omega
  | ⟨1, _⟩ => show win0_2.index t (1 : Fin 2) * 1024 + 1 * k.val = k.val; omega

theorem wvblk_apply (c : Dev nD) (t : Fin cfg0.N) (d k : Fin 1024) :
    iblk m c 3 t (ix2 d k) = m ((c : Thread nD τ).loc main_arg3) (ix2 k d) := by
  obtain ⟨-, -, -, -, -, -, -, e0, e1, -⟩ := idx_facts t
  unfold iblk
  rw [View.read_apply]
  show V m c main_v5 _ = _
  refine (congrArg _ (funext fun a => Fin.ext ?_)).trans (wv_apply m c d k)
  match a with
  | ⟨0, _⟩ => show win0_3.index t (0 : Fin 2) * 1024 + 1 * d.val = d.val; omega
  | ⟨1, _⟩ => show win0_3.index t (1 : Fin 2) * 1024 + 1 * k.val = k.val; omega

/-- The tile's query rows are rows 512·(t % 4) + r of the batch block. -/
theorem qRows_apply (t : Fin cfg0.N) (x0 : Vec Ideal S1x2048x1024 .f32) (u : Fin 1) (r : Fin 512) (d : Fin 1024) :
    Cases.qRows (grid0.coords t) x0 (ix3 u r d) = x0 (ix3 (0 : Fin 1) (rowOf t r) d) := by
  have hq : ((grid0.coords t) 1).val = t.val % 4 := (idx_facts t).2.2.2.2.2.2.2.2.2.2.2.2
  have ho := k0_off1_eq (grid0.coords t)
  show x0 ((Rect.unit (s := S1x2048x1024) (k0_off1 (grid0.coords t)) S1x512x1024.size (k0_off1_inb (grid0.coords t))).emb (ix3 u r d)) = _
  refine congrArg x0 (funext fun a => Fin.ext ?_)
  match a with
  | ⟨0, _⟩ => show k0_off1 (grid0.coords t) 0 + 1 * u.val = 0; rw [ho]; show 0 + 1 * u.val = 0; have := u.isLt; omega
  | ⟨1, _⟩ => show k0_off1 (grid0.coords t) 1 + 1 * r.val = 512 * (t.val % 4) + r.val; rw [ho]; show 512 * ((grid0.coords t) 1).val + 1 * r.val = _; rw [hq]; omega
  | ⟨2, _⟩ => show k0_off1 (grid0.coords t) 2 + 1 * d.val = d.val; rw [ho]; show 0 + 1 * d.val = d.val; omega

end Cert.KernelIdeal.Blocks

end
-- ==== Proof.Pay.lean ====
/-
  The kernel body's arithmetic, read index by index on the extended reals.

  A grid point's body does three things. At the first query tile of a batch it projects the whole sequence of the
  batch, x[b] : [2048, 1024], by the key and the value weights (already transposed: wᵀ[d, k]) and keeps the two
  products. At every tile it projects its 512 query rows by the query weights, multiplies them with ALL key rows
  (contracting the feature axis of both), scales, takes each row's maximum from -∞, exponentiates the differences,
  sums each row, divides, and multiplies the weights with the value rows. Each product into the zero accumulator is a
  plain sum over the contracted axis, a change of float format is the identity, a row maximum is a fold of `max`, a row
  sum a sum; so, when the kept products are the key and value projections, the tile is the attention function of
  Spec.lean at the tile's rows.
-/
import proofs.«173278_j37452114821624_2_alg».proof.Proof.Gen.KernelIdeal.Skeleton
import proofs.«173278_j37452114821624_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Attn

/-! ## The four contractions as sums -/

/-! ### The contraction `dot_S2048x1024_S1024x1024_S2048x1024_1_0_0_1_n_n` -/

theorem kv_ln (i : S2048x1024.Idx) (q : dot_S2048x1024_S1024x1024_S2048x1024_1_0_0_1_n_n.contr.Idx) : (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem kv_lc (i : S2048x1024.Idx) (q : dot_S2048x1024_S1024x1024_S2048x1024_1_0_0_1_n_n.contr.Idx) : (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem kv_rn (i : S2048x1024.Idx) (q : dot_S2048x1024_S1024x1024_S2048x1024_1_0_0_1_n_n.contr.Idx) : (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl
theorem kv_rc (i : S2048x1024.Idx) (q : dot_S2048x1024_S1024x1024_S2048x1024_1_0_0_1_n_n.contr.Idx) : (dot_S2048x1024_S1024x1024_S2048x1024_1_0_0_1_n_n.rhsIdx i q 0).val = (q ⟨0, by decide⟩).val :=
  dot_S2048x1024_S1024x1024_S2048x1024_1_0_0_1_n_n.rhsIdx_val_of_single rfl i q

/-- Into the zero accumulator this product is the plain sum over the contracted axis. -/
theorem kv_apply (l : FVec Ideal S2048x1024 .bf16) (r : FVec Ideal S1024x1024 .bf16) (i : Fin 2048) (j : Fin 1024) :
    matmul dot_S2048x1024_S1024x1024_S2048x1024_1_0_0_1_n_n none l r (constant (F := Ideal) S2048x1024 .f32 0x00000000#32) (ix2 i j)
      = ∑ d : Fin 1024, l (ix2 i d) * r (ix2 d j) := by
  refine (Ideal.matmul_constant_zero_apply dot_S2048x1024_S1024x1024_S2048x1024_1_0_0_1_n_n none l r (ix2 i j)).trans ?_
  rw [← Equiv.sum_comp (contrEquiv1 dot_S2048x1024_S1024x1024_S2048x1024_1_0_0_1_n_n 1024 rfl rfl).symm]
  refine Finset.sum_congr rfl fun d _ => ?_
  have hd := contrEquiv1_symm_val dot_S2048x1024_S1024x1024_S2048x1024_1_0_0_1_n_n 1024 rfl rfl d
  rw [idx2_ext (dot_S2048x1024_S1024x1024_S2048x1024_1_0_0_1_n_n.lhsIdx (ix2 i j) ((contrEquiv1 dot_S2048x1024_S1024x1024_S2048x1024_1_0_0_1_n_n 1024 rfl rfl).symm d)) i d (kv_ln _ _) ((kv_lc _ _).trans hd),
    idx2_ext (dot_S2048x1024_S1024x1024_S2048x1024_1_0_0_1_n_n.rhsIdx (ix2 i j) ((contrEquiv1 dot_S2048x1024_S1024x1024_S2048x1024_1_0_0_1_n_n 1024 rfl rfl).symm d)) d j ((kv_rc _ _).trans hd) (kv_rn _ _)]

/-! ### The contraction `dot_S512x1024_S1024x1024_S512x1024_1_0_0_1_n_n` -/

theorem qp_ln (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem qp_lc (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem qp_rn (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem qp_rc (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q

/-- Into the zero accumulator this product is the plain sum over the contracted axis. -/
theorem qp_apply (l : FVec Ideal S512x1024 .bf16) (r : FVec Ideal S1024x1024 .bf16) (i : Fin 512) (j : Fin 1024) :
    matmul dot_S512x1024_S1024x1024_S512x1024_1_0_0_1_n_n none l r (constant (F := Ideal) S512x1024 .f32 0x00000000#32) (ix2 i j)
      = ∑ d : Fin 1024, l (ix2 i d) * r (ix2 d j) := by
  refine (Ideal.matmul_constant_zero_apply dot_S512x1024_S1024x1024_S512x1024_1_0_0_1_n_n none l r (ix2 i j)).trans ?_
  rw [← Equiv.sum_comp (contrEquiv1 dot_S512x1024_S1024x1024_S512x1024_1_0_0_1_n_n 1024 rfl rfl).symm]
  refine Finset.sum_congr rfl fun d _ => ?_
  have hd := contrEquiv1_symm_val dot_S512x1024_S1024x1024_S512x1024_1_0_0_1_n_n 1024 rfl rfl d
  rw [idx2_ext (dot_S512x1024_S1024x1024_S512x1024_1_0_0_1_n_n.lhsIdx (ix2 i j) ((contrEquiv1 dot_S512x1024_S1024x1024_S512x1024_1_0_0_1_n_n 1024 rfl rfl).symm d)) i d (qp_ln _ _) ((qp_lc _ _).trans hd),
    idx2_ext (dot_S512x1024_S1024x1024_S512x1024_1_0_0_1_n_n.rhsIdx (ix2 i j) ((contrEquiv1 dot_S512x1024_S1024x1024_S512x1024_1_0_0_1_n_n 1024 rfl rfl).symm d)) d j ((qp_rc _ _).trans hd) (qp_rn _ _)]

/-! ### The contraction `dot_S512x1024_S2048x1024_S512x2048_1_1_0_0_n_n` -/

theorem qk_ln (i : S512x2048.Idx) (q : dot_S512x1024_S2048x1024_S512x2048_1_1_0_0_n_n.contr.Idx) : (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem qk_lc (i : S512x2048.Idx) (q : dot_S512x1024_S2048x1024_S512x2048_1_1_0_0_n_n.contr.Idx) : (dot_S512x1024_S2048x1024_S512x2048_1_1_0_0_n_n.lhsIdx i q 1).val = (q ⟨0, by decide⟩).val :=
  dot_S512x1024_S2048x1024_S512x2048_1_1_0_0_n_n.lhsIdx_val_of_single rfl i q
theorem qk_rn (i : S512x2048.Idx) (q : dot_S512x1024_S2048x1024_S512x2048_1_1_0_0_n_n.contr.Idx) : (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem qk_rc (i : S512x2048.Idx) (q : dot_S512x1024_S2048x1024_S512x2048_1_1_0_0_n_n.contr.Idx) : (dot_S512x1024_S2048x1024_S512x2048_1_1_0_0_n_n.rhsIdx i q 1).val = (q ⟨0, by decide⟩).val :=
  dot_S512x1024_S2048x1024_S512x2048_1_1_0_0_n_n.rhsIdx_val_of_single rfl i q

/-- Into the zero accumulator this product is the plain sum over the contracted axis. -/
theorem qk_apply (l : FVec Ideal S512x1024 .bf16) (r : FVec Ideal S2048x1024 .bf16) (i : Fin 512) (j : Fin 2048) :
    matmul dot_S512x1024_S2048x1024_S512x2048_1_1_0_0_n_n none l r (constant (F := Ideal) S512x2048 .f32 0x00000000#32) (ix2 i j)
      = ∑ d : Fin 1024, l (ix2 i d) * r (ix2 j d) := by
  refine (Ideal.matmul_constant_zero_apply dot_S512x1024_S2048x1024_S512x2048_1_1_0_0_n_n none l r (ix2 i j)).trans ?_
  rw [← Equiv.sum_comp (contrEquiv1 dot_S512x1024_S2048x1024_S512x2048_1_1_0_0_n_n 1024 rfl rfl).symm]
  refine Finset.sum_congr rfl fun d _ => ?_
  have hd := contrEquiv1_symm_val dot_S512x1024_S2048x1024_S512x2048_1_1_0_0_n_n 1024 rfl rfl d
  rw [idx2_ext (dot_S512x1024_S2048x1024_S512x2048_1_1_0_0_n_n.lhsIdx (ix2 i j) ((contrEquiv1 dot_S512x1024_S2048x1024_S512x2048_1_1_0_0_n_n 1024 rfl rfl).symm d)) i d (qk_ln _ _) ((qk_lc _ _).trans hd),
    idx2_ext (dot_S512x1024_S2048x1024_S512x2048_1_1_0_0_n_n.rhsIdx (ix2 i j) ((contrEquiv1 dot_S512x1024_S2048x1024_S512x2048_1_1_0_0_n_n 1024 rfl rfl).symm d)) j d (qk_rn _ _) ((qk_rc _ _).trans hd)]

/-! ### The contraction `dot_S512x2048_S2048x1024_S512x1024_1_0_0_1_n_n` -/

theorem wv_ln (i : S512x1024.Idx) (q : dot_S512x2048_S2048x1024_S512x1024_1_0_0_1_n_n.contr.Idx) : (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem wv_lc (i : S512x1024.Idx) (q : dot_S512x2048_S2048x1024_S512x1024_1_0_0_1_n_n.contr.Idx) : (dot_S512x2048_S2048x1024_S512x1024_1_0_0_1_n_n.lhsIdx i q 1).val = (q ⟨0, by decide⟩).val :=
  dot_S512x2048_S2048x1024_S512x1024_1_0_0_1_n_n.lhsIdx_val_of_single rfl i q
theorem wv_rn (i : S512x1024.Idx) (q : dot_S512x2048_S2048x1024_S512x1024_1_0_0_1_n_n.contr.Idx) : (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl
theorem wv_rc (i : S512x1024.Idx) (q : dot_S512x2048_S2048x1024_S512x1024_1_0_0_1_n_n.contr.Idx) : (dot_S512x2048_S2048x1024_S512x1024_1_0_0_1_n_n.rhsIdx i q 0).val = (q ⟨0, by decide⟩).val :=
  dot_S512x2048_S2048x1024_S512x1024_1_0_0_1_n_n.rhsIdx_val_of_single rfl i q

/-- Into the zero accumulator this product is the plain sum over the contracted axis. -/
theorem wv_apply (l : FVec Ideal S512x2048 .bf16) (r : FVec Ideal S2048x1024 .bf16) (i : Fin 512) (j : Fin 1024) :
    matmul dot_S512x2048_S2048x1024_S512x1024_1_0_0_1_n_n none l r (constant (F := Ideal) S512x1024 .f32 0x00000000#32) (ix2 i j)
      = ∑ d : Fin 2048, l (ix2 i d) * r (ix2 d j) := by
  refine (Ideal.matmul_constant_zero_apply dot_S512x2048_S2048x1024_S512x1024_1_0_0_1_n_n none l r (ix2 i j)).trans ?_
  rw [← Equiv.sum_comp (contrEquiv1 dot_S512x2048_S2048x1024_S512x1024_1_0_0_1_n_n 2048 rfl rfl).symm]
  refine Finset.sum_congr rfl fun d _ => ?_
  have hd := contrEquiv1_symm_val dot_S512x2048_S2048x1024_S512x1024_1_0_0_1_n_n 2048 rfl rfl d
  rw [idx2_ext (dot_S512x2048_S2048x1024_S512x1024_1_0_0_1_n_n.lhsIdx (ix2 i j) ((contrEquiv1 dot_S512x2048_S2048x1024_S512x1024_1_0_0_1_n_n 2048 rfl rfl).symm d)) i d (wv_ln _ _) ((wv_lc _ _).trans hd),
    idx2_ext (dot_S512x2048_S2048x1024_S512x1024_1_0_0_1_n_n.rhsIdx (ix2 i j) ((contrEquiv1 dot_S512x2048_S2048x1024_S512x1024_1_0_0_1_n_n 2048 rfl rfl).symm d)) d j ((wv_rc _ _).trans hd) (wv_rn _ _)]

/-! ## A column kept as [512, 1] and spread over the row -/

/-- A vector of 512 row values, reshaped to a column and broadcast along the row, reads the row's value everywhere. -/
theorem col_spread (v : FVec Ideal S512 .f32) (r : Fin 512) (n : Fin 2048) :
    broadcastTo S512x2048 (shapeCast S512x1 v shapeCasts_S512_S512x1) broadcasts_S512x1_S512x2048 (ix2 r n) = v (ix1 r) := by
  refine (broadcastTo_apply (shapeCast S512x1 v shapeCasts_S512_S512x1) broadcasts_S512x1_S512x2048 (ix2 r n)
    (ix2 r (0 : Fin 1)) fun a => ?_).trans ?_
  · match a with
    | ⟨0, _⟩ => show r.val = if (512 : Nat) = 1 then 0 else r.val; rw [if_neg (by decide)]
    | ⟨1, _⟩ => show 0 = if (1 : Nat) = 1 then 0 else n.val; rw [if_pos rfl]
  · refine shapeCast_apply v shapeCasts_S512_S512x1 (ix2 r (0 : Fin 1)) (ix1 r) ?_
    rw [Shape.rowMajor_val_one, Shape.rowMajor_val_two]
    show r.val = r.val * 1 + 0
    omega

/-! ## The key and value projections of a whole batch -/

/-- The product the first tile of a batch keeps: the batch's rows, each against one column of the transposed weights. -/
theorem proj_apply (v32 : FVec Ideal S1x2048x1024 .f32) (w : FVec Ideal S1024x1024 .bf16) (n : Fin 2048) (k : Fin 1024) :
    shapeCast S2048x1024 (truncf .bf16 (matmul dot_S2048x1024_S1024x1024_S2048x1024_1_0_0_1_n_n none
        (truncf .bf16 (shapeCast S2048x1024 v32 shapeCasts_S1x2048x1024_S2048x1024) bitsLt_bf16_f32)
        (shapeCast S1024x1024 w shapeCasts_S1024x1024_S1024x1024) (constant (F := Ideal) S2048x1024 .f32 0x00000000#32)) bitsLt_bf16_f32)
      shapeCasts_S2048x1024_S2048x1024 (ix2 n k)
      = ∑ d : Fin 1024, v32 (ix3 (0 : Fin 1) n d) * w (ix2 d k) := by
  simp only [shapeCast_self]
  refine (kv_apply _ _ n k).trans (Finset.sum_congr rfl fun d _ => ?_)
  exact congrArg (· * w (ix2 d k)) (shapeCast_1ab_ab_apply v32 shapeCasts_S1x2048x1024_S2048x1024 n d)

theorem pay2_apply (v32 : Vec Ideal S1x2048x1024 .f32) (v35 : Vec Ideal S1024x1024 .bf16) (n : Fin 2048) (k : Fin 1024) :
    k0_pay2 v32 v35 (ix2 n k) = ∑ d : Fin 1024, v32 (ix3 (0 : Fin 1) n d) * v35 (ix2 d k) :=
  proj_apply v32 v35 n k

theorem pay3_apply (v32 : Vec Ideal S1x2048x1024 .f32) (v42 : Vec Ideal S1024x1024 .bf16) (n : Fin 2048) (k : Fin 1024) :
    k0_pay3 v32 v42 (ix2 n k) = ∑ d : Fin 1024, v32 (ix3 (0 : Fin 1) n d) * v42 (ix2 d k) :=
  proj_apply v32 v42 n k

/-! ## A query tile, stage by stage -/

/-- The tile's query rows projected. -/
def qTile (v6 : FVec Ideal S1x512x1024 .f32) (v9 : FVec Ideal S1024x1024 .bf16) : FVec Ideal S512x1024 .bf16 :=
  truncf .bf16 (matmul dot_S512x1024_S1024x1024_S512x1024_1_0_0_1_n_n none
    (truncf .bf16 (shapeCast S512x1024 v6 shapeCasts_S1x512x1024_S512x1024) bitsLt_bf16_f32)
    (shapeCast S1024x1024 v9 shapeCasts_S1024x1024_S1024x1024) (constant S512x1024 .f32 0x00000000#32)) bitsLt_bf16_f32

/-- Their scaled scores against every key row. -/
def sTile (kk : FVec Ideal S2048x1024 .bf16) (q : FVec Ideal S512x1024 .bf16) : FVec Ideal S512x2048 .f32 :=
  mulf (matmul dot_S512x1024_S2048x1024_S512x2048_1_1_0_0_n_n none q kk (constant S512x2048 .f32 0x00000000#32))
    (broadcast S512x2048 (Scalar.ofBits (F := Ideal) .f32 0x3D000000#32))

/-- Each row's maximum. -/
def mCol (s : FVec Ideal S512x2048 .f32) : FVec Ideal S512 .f32 :=
  multiReduction .maximumf [1] S512 s 0xFF800000#32 reduces_S512x2048_S512 (.inl rfl) rfl

/-- The exponentials of the scores less their row's maximum. -/
def eTile (s : FVec Ideal S512x2048 .f32) : FVec Ideal S512x2048 .f32 :=
  exp (subf s (broadcastTo S512x2048 (shapeCast S512x1 (mCol s) shapeCasts_S512_S512x1) broadcasts_S512x1_S512x2048))

/-- Each row's sum. -/
def lCol (e : FVec Ideal S512x2048 .f32) : FVec Ideal S512 .f32 :=
  multiReduction .add [1] S512 e 0x00000000#32 reduces_S512x2048_S512 (.inl rfl) rfl

/-- The normalized weights. -/
def wTile (e : FVec Ideal S512x2048 .f32) : FVec Ideal S512x2048 .bf16 :=
  truncf .bf16 (divf e (broadcastTo S512x2048 (shapeCast S512x1 (lCol e) shapeCasts_S512_S512x1) broadcasts_S512x1_S512x2048))
    bitsLt_bf16_f32

/-- The weights against the value rows, as the block the tile stores. -/
def oTile (vv : FVec Ideal S2048x1024 .bf16) (w : FVec Ideal S512x2048 .bf16) : FVec Ideal S1x512x1024 .f32 :=
  shapeCast S1x512x1024 (matmul dot_S512x2048_S2048x1024_S512x1024_1_0_0_1_n_n none w vv (constant S512x1024 .f32 0x00000000#32)) shapeCasts_S512x1024_S1x512x1024

/-- The stored block is the composition of the stages. -/
theorem pay4_eq (v6 : Vec Ideal S1x512x1024 .f32) (v9 : Vec Ideal S1024x1024 .bf16) (v13 v27 : Vec Ideal S2048x1024 .bf16) :
    k0_pay4 v6 v9 v13 v27 = oTile v27 (wTile (eTile (sTile v13 (qTile v6 v9)))) := rfl

theorem qTile_apply (v6 : FVec Ideal S1x512x1024 .f32) (v9 : FVec Ideal S1024x1024 .bf16) (r : Fin 512) (k : Fin 1024) :
    qTile v6 v9 (ix2 r k) = ∑ d : Fin 1024, v6 (ix3 (0 : Fin 1) r d) * v9 (ix2 d k) := by
  unfold qTile
  refine (qp_apply _ _ r k).trans (Finset.sum_congr rfl fun d _ => ?_)
  refine congrArg₂ (· * ·) ?_ ?_
  · exact shapeCast_1ab_ab_apply v6 shapeCasts_S1x512x1024_S512x1024 r d
  · exact congrFun (shapeCast_self v9 shapeCasts_S1024x1024_S1024x1024) (ix2 d k)

theorem sTile_apply (kk : FVec Ideal S2048x1024 .bf16) (q : FVec Ideal S512x1024 .bf16) (r : Fin 512) (n : Fin 2048) :
    sTile kk q (ix2 r n) = (∑ k : Fin 1024, q (ix2 r k) * kk (ix2 n k)) * scale := by
  unfold sTile
  exact congrArg (· * scale) (qk_apply q kk r n)

theorem mCol_apply (s : FVec Ideal S512x2048 .f32) (r : Fin 512) :
    mCol s (ix1 r) = (Finset.univ : Finset (Fin 2048)).fold max negInf (fun n => s (ix2 r n)) := by
  unfold mCol
  refine (Ideal.multiReduction_maximumf_single s 0xFF800000#32 reduces_S512x2048_S512 (.inl rfl) rfl (ix1 r)).trans ?_
  refine Finset.fold_congr fun n _ => ?_
  exact congrArg s (idx2_ext (reduces_S512x2048_S512.lift (ix1 r) n) r n rfl rfl)

theorem eTile_apply (s : FVec Ideal S512x2048 .f32) (r : Fin 512) (n : Fin 2048) :
    eTile s (ix2 r n) = Ideal.exp (s (ix2 r n) - mCol s (ix1 r)) := by
  unfold eTile
  exact congrArg (fun z => Ideal.exp (s (ix2 r n) - z)) (col_spread (mCol s) r n)

theorem lCol_apply (e : FVec Ideal S512x2048 .f32) (r : Fin 512) :
    lCol e (ix1 r) = ∑ n : Fin 2048, e (ix2 r n) := by
  unfold lCol
  refine (Ideal.multiReduction_add_single e 0x00000000#32 reduces_S512x2048_S512 (.inl rfl) rfl (ix1 r)).trans ?_
  refine Finset.sum_congr rfl fun n _ => ?_
  exact congrArg e (idx2_ext (reduces_S512x2048_S512.lift (ix1 r) n) r n rfl rfl)

theorem wTile_apply (e : FVec Ideal S512x2048 .f32) (r : Fin 512) (n : Fin 2048) :
    wTile e (ix2 r n) = Ideal.div (e (ix2 r n)) (lCol e (ix1 r)) := by
  unfold wTile
  exact congrArg (fun z => Ideal.div (e (ix2 r n)) z) (col_spread (lCol e) r n)

theorem oTile_apply (vv : FVec Ideal S2048x1024 .bf16) (w : FVec Ideal S512x2048 .bf16) (u : Fin 1) (r : Fin 512) (k : Fin 1024) :
    oTile vv w (ix3 u r k) = ∑ n : Fin 2048, w (ix2 r n) * vv (ix2 n k) := by
  unfold oTile
  exact (shapeCast_ab_1ab_apply _ shapeCasts_S512x1024_S1x512x1024 u r k).trans (wv_apply w vv r k)

/-! ## The tile against the specification -/

section Tile

variable (x : SX.Idx → EReal) (wq wk wv : SW.Idx → EReal) (b : Fin 4) (row : Fin 512 → Fin 2048)
variable (v6 : FVec Ideal S1x512x1024 .f32) (v9 : FVec Ideal S1024x1024 .bf16) (kk vv : FVec Ideal S2048x1024 .bf16)
variable (h6 : ∀ (r : Fin 512) (d : Fin 1024), v6 (ix3 (0 : Fin 1) r d) = x (ix3 b (row r) d))
variable (h9 : ∀ (d k : Fin 1024), v9 (ix2 d k) = wq (ix2 k d))
variable (hk : ∀ (n : Fin 2048) (k : Fin 1024), kk (ix2 n k) = proj x wk b n k)
variable (hv : ∀ (n : Fin 2048) (k : Fin 1024), vv (ix2 n k) = proj x wv b n k)

include h6 h9 in
theorem q_is_proj (r : Fin 512) (k : Fin 1024) : qTile v6 v9 (ix2 r k) = proj x wq b (row r) k := by
  rw [qTile_apply]
  unfold proj
  exact Finset.sum_congr rfl fun d _ => by rw [h6, h9]

include h6 h9 hk in
theorem s_is_score (r : Fin 512) (n : Fin 2048) :
    sTile kk (qTile v6 v9) (ix2 r n) = score x wq wk b (row r) n := by
  rw [sTile_apply]
  unfold score
  exact congrArg (· * scale) (Finset.sum_congr rfl fun k _ => by rw [q_is_proj x wq b row v6 v9 h6 h9, hk])

include h6 h9 hk in
theorem m_is_rowMax (r : Fin 512) :
    mCol (sTile kk (qTile v6 v9)) (ix1 r) = rowMax x wq wk b (row r) := by
  rw [mCol_apply]
  unfold rowMax
  exact Finset.fold_congr fun n _ => s_is_score x wq wk b row v6 v9 kk h6 h9 hk r n

include h6 h9 hk in
theorem e_is_expo (r : Fin 512) (n : Fin 2048) :
    eTile (sTile kk (qTile v6 v9)) (ix2 r n) = expo x wq wk b (row r) n := by
  rw [eTile_apply, s_is_score x wq wk b row v6 v9 kk h6 h9 hk, m_is_rowMax x wq wk b row v6 v9 kk h6 h9 hk]
  rfl

include h6 h9 hk in
theorem l_is_denom (r : Fin 512) :
    lCol (eTile (sTile kk (qTile v6 v9))) (ix1 r) = denom x wq wk b (row r) := by
  rw [lCol_apply]
  unfold denom
  exact Finset.sum_congr rfl fun n _ => e_is_expo x wq wk b row v6 v9 kk h6 h9 hk r n

include h6 h9 hk in
theorem w_is_weight (r : Fin 512) (n : Fin 2048) :
    wTile (eTile (sTile kk (qTile v6 v9))) (ix2 r n) = weight x wq wk b (row r) n := by
  rw [wTile_apply, e_is_expo x wq wk b row v6 v9 kk h6 h9 hk, l_is_denom x wq wk b row v6 v9 kk h6 h9 hk]
  rfl

include h6 h9 hk hv in
/-- With the kept products the key and value projections of batch `b`, and the tile's rows `row r` of that batch,
    the stored block is attention at those rows. -/
theorem tile_is_attn (u : Fin 1) (r : Fin 512) (k : Fin 1024) :
    oTile vv (wTile (eTile (sTile kk (qTile v6 v9)))) (ix3 u r k) = attnAt x wq wk wv b (row r) k := by
  rw [oTile_apply]
  unfold attnAt
  exact Finset.sum_congr rfl fun n _ => by rw [w_is_weight x wq wk b row v6 v9 kk h6 h9 hk, hv]

end Tile

end Cert.KernelIdeal.Pay

end
-- ==== Proof.AttnRun.lean ====
/-
  The kernel's result array is the attention function of its arguments.

  The grid runs the four query tiles of batch 0, then of batch 1, and so on. The two kept buffers are written at the
  first tile of each batch and only read afterwards, so after every point they hold the key and value projections of
  that point's batch (induction on the point: a first tile stores them, a later tile leaves what the point before
  left, which is the same batch's). Hence every point's output block is attention at rows 512·(t % 4) + r of batch
  t / 4; the point's block of the result array sits at exactly those rows, the sixteen blocks tile the array, and the
  array ends at the attention function everywhere.
-/
import proofs.«173278_j37452114821624_2_alg».proof.Proof.Gen.KernelIdeal.Value
import proofs.«173278_j37452114821624_2_alg».proof.Proof.Cases
import proofs.«173278_j37452114821624_2_alg».proof.Proof.Blocks
import proofs.«173278_j37452114821624_2_alg».proof.Proof.Pay
import proofs.«173278_j37452114821624_2_alg».proof.Proof.Spec
import Idealize.ShloMosaic.Lib.Pipeline.Value

set_option maxRecDepth 16384

noncomputable section

namespace Cert.KernelIdeal.AttnRun

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-- The argument arrays at launch: the sequences and the three weight matrices. -/
abbrev X (c : Dev nD) : SX.Idx → EReal := m ((c : Thread nD τ).loc main_arg0)
abbrev Wq (c : Dev nD) : SW.Idx → EReal := m ((c : Thread nD τ).loc main_arg1)
abbrev Wk (c : Dev nD) : SW.Idx → EReal := m ((c : Thread nD τ).loc main_arg2)
abbrev Wv (c : Dev nD) : SW.Idx → EReal := m ((c : Thread nD τ).loc main_arg3)

/-- The key projection computed from a point's blocks is the key projection of the point's batch. -/
theorem keys_of_blocks (c : Dev nD) (t : Fin cfg0.N) (n : Fin 2048) (k : Fin 1024) :
    k0_pay2 (iblk m c 0 t) (iblk m c 2 t) (ix2 n k) = proj (X m c) (Wk m c) (Blocks.batchOf t) n k := by
  refine (Pay.pay2_apply (iblk m c 0 t) (iblk m c 2 t) n k).trans ?_
  unfold proj
  exact Finset.sum_congr rfl fun d _ =>
    congrArg₂ (· * ·) (Blocks.xblk_apply m c t 0 n d) (Blocks.wkblk_apply m c t d k)

/-- The same for the value projection. -/
theorem vals_of_blocks (c : Dev nD) (t : Fin cfg0.N) (n : Fin 2048) (k : Fin 1024) :
    k0_pay3 (iblk m c 0 t) (iblk m c 3 t) (ix2 n k) = proj (X m c) (Wv m c) (Blocks.batchOf t) n k := by
  refine (Pay.pay3_apply (iblk m c 0 t) (iblk m c 3 t) n k).trans ?_
  unfold proj
  exact Finset.sum_congr rfl fun d _ =>
    congrArg₂ (· * ·) (Blocks.xblk_apply m c t 0 n d) (Blocks.wvblk_apply m c t d k)

/-- At the first tile of a batch the kept buffers are written: the two projections of the point's own blocks. -/
theorem kept_first (c : Dev nD) (t : Fin cfg0.N) (h0 : t.val % 4 = 0) (j : Fin 2048) (k : Fin 1024) :
    (outsAt0 m c t.val t.isLt).2.1 (ix2 j k) = proj (X m c) (Wk m c) (Blocks.batchOf t) j k
    ∧ (outsAt0 m c t.val t.isLt).2.2 (ix2 j k) = proj (X m c) (Wv m c) (Blocks.batchOf t) j k := by
  have e1 : (outsAt0 m c t.val t.isLt).2.1 = k0_pay2 (iblk m c 0 t) (iblk m c 2 t) := by
    rw [outsAt0_A m c t h0]
    dsimp only
    exact Cases.kept_K (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)
  have e2 : (outsAt0 m c t.val t.isLt).2.2 = k0_pay3 (iblk m c 0 t) (iblk m c 3 t) := by
    rw [outsAt0_A m c t h0]
    dsimp only
    exact Cases.kept_V (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)
  exact ⟨(congrFun e1 _).trans (keys_of_blocks m c t j k), (congrFun e2 _).trans (vals_of_blocks m c t j k)⟩

/-- At a later tile they are left as the point before left them. -/
theorem kept_later (c : Dev nD) (t : Fin cfg0.N) (h0 : ¬t.val % 4 = 0) :
    (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 :=
  by
  constructor
  · rw [outsAt0_B m c t h0]; rfl
  · rw [outsAt0_B m c t h0]; rfl

/-- WHAT THE KEPT BUFFERS HOLD after every point: the key and the value projections of the point's batch. -/
theorem kept_spec (c : Dev nD) : ∀ (n : ℕ) (h : n < cfg0.N) (j : Fin 2048) (k : Fin 1024),
    (outsAt0 m c n h).2.1 (ix2 j k) = proj (X m c) (Wk m c) (Blocks.batchOf ⟨n, h⟩) j k
    ∧ (outsAt0 m c n h).2.2 (ix2 j k) = proj (X m c) (Wv m c) (Blocks.batchOf ⟨n, h⟩) j k := by
  intro n
  induction n with
  | zero => intro h j k; exact kept_first m c ⟨0, h⟩ rfl j k
  | succ n ih =>
    intro h j k
    by_cases h0 : (n + 1) % 4 = 0
    · exact kept_first m c ⟨n + 1, h⟩ h0 j k
    · obtain ⟨e1, e2⟩ := kept_later m c ⟨n + 1, h⟩ h0
      have hb : Blocks.batchOf ⟨n, Nat.lt_of_succ_lt h⟩ = Blocks.batchOf ⟨n + 1, h⟩ :=
        Fin.ext (by show n / 4 = (n + 1) / 4; omega)
      have := ih (Nat.lt_of_succ_lt h) j k
      rw [hb] at this
      exact ⟨(congrFun e1 _).trans this.1, (congrFun e2 _).trans this.2⟩

/-- WHAT EVERY POINT'S OUTPUT BLOCK HOLDS: attention at the tile's rows of the point's batch. -/
theorem tile_spec (c : Dev nD) (t : Fin cfg0.N) (u : Fin 1) (r : Fin 512) (k : Fin 1024) :
    (outsAt0 m c t.val t.isLt).1 (ix3 u r k) = attnAt (X m c) (Wq m c) (Wk m c) (Wv m c) (Blocks.batchOf t) (Blocks.rowOf t r) k := by
  have h6 : ∀ (r : Fin 512) (d : Fin 1024),
      Cases.qRows (grid0.coords t) (iblk m c 0 t) (ix3 (0 : Fin 1) r d) = X m c (ix3 (Blocks.batchOf t) (Blocks.rowOf t r) d) :=
    fun r d => (Blocks.qRows_apply t (iblk m c 0 t) 0 r d).trans (Blocks.xblk_apply m c t 0 (Blocks.rowOf t r) d)
  have h9 : ∀ (d k : Fin 1024), iblk m c 1 t (ix2 d k) = Wq m c (ix2 k d) := fun d k => Blocks.wqblk_apply m c t d k
  by_cases h0 : t.val % 4 = 0
  · have e : (outsAt0 m c t.val t.isLt).1
        = k0_pay4 (Cases.qRows (grid0.coords t) (iblk m c 0 t)) (iblk m c 1 t) (k0_pay2 (iblk m c 0 t) (iblk m c 2 t)) (k0_pay3 (iblk m c 0 t) (iblk m c 3 t)) := by
      rw [outsAt0_A m c t h0]
      dsimp only
      exact Cases.tile_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)
    refine (congrFun (e.trans (Pay.pay4_eq _ _ _ _)) (ix3 u r k)).trans ?_
    exact Pay.tile_is_attn (X m c) (Wq m c) (Wk m c) (Wv m c) (Blocks.batchOf t) (Blocks.rowOf t) (Cases.qRows (grid0.coords t) (iblk m c 0 t)) (iblk m c 1 t)
      (k0_pay2 (iblk m c 0 t) (iblk m c 2 t)) (k0_pay3 (iblk m c 0 t) (iblk m c 3 t)) h6 h9
      (keys_of_blocks m c t) (vals_of_blocks m c t) u r k
  · have hlt : t.val - 1 < cfg0.N := Nat.lt_of_le_of_lt (Nat.sub_le _ _) t.isLt
    have e : (outsAt0 m c t.val t.isLt).1
        = k0_pay4 (Cases.qRows (grid0.coords t) (iblk m c 0 t)) (iblk m c 1 t) (outsAt0 m c (t.val - 1) hlt).2.1 (outsAt0 m c (t.val - 1) hlt).2.2 := by
      rw [outsAt0_B m c t h0]
      dsimp only
      exact Cases.tile_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
        (outsAt0 m c (t.val - 1) hlt).2.1 (outsAt0 m c (t.val - 1) hlt).2.2
    have hb : Blocks.batchOf ⟨t.val - 1, hlt⟩ = Blocks.batchOf t := Fin.ext (by show (t.val - 1) / 4 = t.val / 4; omega)
    have hk : ∀ (n : Fin 2048) (k : Fin 1024), (outsAt0 m c (t.val - 1) hlt).2.1 (ix2 n k) = proj (X m c) (Wk m c) (Blocks.batchOf t) n k :=
      fun n k => by have := (kept_spec m c (t.val - 1) hlt n k).1; rwa [hb] at this
    have hv : ∀ (n : Fin 2048) (k : Fin 1024), (outsAt0 m c (t.val - 1) hlt).2.2 (ix2 n k) = proj (X m c) (Wv m c) (Blocks.batchOf t) n k :=
      fun n k => by have := (kept_spec m c (t.val - 1) hlt n k).2; rwa [hb] at this
    refine (congrFun (e.trans (Pay.pay4_eq _ _ _ _)) (ix3 u r k)).trans ?_
    exact Pay.tile_is_attn (X m c) (Wq m c) (Wk m c) (Wv m c) (Blocks.batchOf t) (Blocks.rowOf t) (Cases.qRows (grid0.coords t) (iblk m c 0 t)) (iblk m c 1 t)
      (outsAt0 m c (t.val - 1) hlt).2.1 (outsAt0 m c (t.val - 1) hlt).2.2 h6 h9 hk hv u r k

/-- WHAT POINT `t` WRITES BACK is block `t` of the attention function of the arguments. -/
theorem flushed_eq (c : Dev nD) (t : Fin cfg0.N) :
    (dats m 0 c).flushed 4 t = ((cfg0.win 4).blk t).view.read (Elt Ideal) (attn (X m c) (Wq m c) (Wk m c) (Wv m c)) := by
  rw [Value.flushed4]
  funext y
  obtain ⟨u, r, k, rfl⟩ : ∃ (u : Fin 1) (r : Fin 512) (k : Fin 1024), y = ix3 u r k :=
    ⟨y 0, y 1, y 2, eq_ix3 (n0 := 1) (n1 := 512) (n2 := 1024) y⟩
  rw [View.read_apply]
  show (outsAt0 m c t.val t.isLt).1 (ix3 u r k) = attn (X m c) (Wq m c) (Wk m c) (Wv m c) (((cfg0.win 4).blk t).view.emb (ix3 u r k))
  obtain ⟨-, -, -, -, -, -, -, -, -, e0, e1, e2, -⟩ := Blocks.idx_facts t
  have he : ((cfg0.win 4).blk t).view.emb (ix3 u r k) = ix3 (Blocks.batchOf t) (Blocks.rowOf t r) k := funext fun a => Fin.ext (by
    match a with
    | ⟨0, _⟩ => show win0_4.index t (0 : Fin 3) * 1 + 1 * u.val = t.val / 4; have := u.isLt; omega
    | ⟨1, _⟩ => show win0_4.index t (1 : Fin 3) * 512 + 1 * r.val = 512 * (t.val % 4) + r.val; omega
    | ⟨2, _⟩ => show win0_4.index t (2 : Fin 3) * 1024 + 1 * k.val = k.val; omega)
  rw [he]
  exact tile_spec m c t u r k

/-- An index of the result array is in point `t`'s block iff each coordinate is in the block's range on its axis. -/
theorem mem_blk (t : Fin cfg0.N) (i : S4x2048x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v6).slice (win0_4.rect t)).set ↔ _
  rw [View.set_slice_whole, Rect.mem_set_unit]
  exact Iff.rfl

/-- Row `i₁` of batch `i₀` is in the block of point 4·i₀ + i₁ / 512: the sixteen blocks tile the array. -/
theorem cover (i : S4x2048x1024.Idx) :
    ∃ t : Fin cfg0.N, (cfg0.win 4).flush t = true ∧ i ∈ ((cfg0.win 4).blk t).view.set := by
  have h0 : (i 0).val < 4 := (i 0).isLt
  have h1 : (i 1).val < 2048 := (i 1).isLt
  have h2 : (i 2).val < 1024 := (i 2).isLt
  have hN : cfg0.N = 16 := N_0
  obtain ⟨t, ht⟩ : ∃ t : Fin cfg0.N, t.val = 4 * (i 0).val + (i 1).val / 512 := ⟨⟨_, by omega⟩, rfl⟩
  refine ⟨t, flush0_4 t, ?_⟩
  obtain ⟨-, -, -, -, -, -, -, -, -, e0, e1, e2, -⟩ := Blocks.idx_facts t
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 1024 ≤ (i 2).val ∧ (i 2).val < win0_4.index t (2 : Fin 3) * 1024 + 1024
    omega

/-- THE RESULT ARRAY after the run. -/
theorem final (c : Dev nD) : (dats m 0 c).arrAt 4 cfg0.N = attn (X m c) (Wq m c) (Wk m c) (Wv m c) :=
  (dats m 0 c).arrAt_eq_of_cover 4 (attn (X m c) (Wq m c) (Wk m c) (Wv m c)) (fun t _ => flushed_eq m c t) cover

/-- The kernel's run: the result array at the attention function of the launch arguments, the arguments unchanged. -/
theorem run : θ_run defs (onTc (τ := τ) (main (F := Ideal))) ⟨m, fun _ => 0, ρ⟩ fun r => ∀ c : Dev nD,
      r.2.mem ((c : Thread nD τ).loc main_v6) = attn (X m c) (Wq m c) (Wk m c) (Wv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.AttnRun

end
-- ==== Proof.RefAttn.lean ====
/-
  The reference program computes the attention function of Spec.lean.

  Each of its stages is read at an index: the three projections are the inner products `proj`; the batched product
  of queries with keys, scaled, is `score`; the row maximum it subtracts is `rowMax` (it takes one more maximum with
  -∞, which changes nothing); the exponentials and their row sum (started from the zero word) are `expo` and
  `denom`; the quotient is `weight`; the last batched product is `attnAt`.
-/
import proofs.«173278_j37452114821624_2_alg».proof.Proof.Gen.ReferenceIdeal.Read
import proofs.«173278_j37452114821624_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attn

variable (x : (⟨S4x2048x1024, .f32⟩ : BufTy).Contents (Elt Ideal))
variable (wq wk wv : (⟨S1024x1024, .f32⟩ : BufTy).Contents (Elt Ideal))

/-- The query projection. -/
theorem v0_eq (b : Fin 4) (n : Fin 2048) (k : Fin 1024) :
    val_main_v0 (F := Ideal) x wq (ix3 b n k) = proj x wq b n k := by
  rw [val_main_v0_apply]
  unfold proj
  refine Finset.sum_congr rfl fun d _ => ?_
  rw [idx3_ext (lidx_main_v0 (ix3 b n k) d) b n d rfl rfl rfl, idx2_ext (ridx_main_v0 (ix3 b n k) d) k d rfl rfl]

/-- The key projection. -/
theorem v1_eq (b : Fin 4) (n : Fin 2048) (k : Fin 1024) :
    val_main_v1 (F := Ideal) x wk (ix3 b n k) = proj x wk b n k := by
  rw [val_main_v1_apply]
  unfold proj
  refine Finset.sum_congr rfl fun d _ => ?_
  rw [idx3_ext (lidx_main_v1 (ix3 b n k) d) b n d rfl rfl rfl, idx2_ext (ridx_main_v1 (ix3 b n k) d) k d rfl rfl]

/-- The value projection. -/
theorem v2_eq (b : Fin 4) (n : Fin 2048) (k : Fin 1024) :
    val_main_v2 (F := Ideal) x wv (ix3 b n k) = proj x wv b n k := by
  rw [val_main_v2_apply]
  unfold proj
  refine Finset.sum_congr rfl fun d _ => ?_
  rw [idx3_ext (lidx_main_v2 (ix3 b n k) d) b n d rfl rfl rfl, idx2_ext (ridx_main_v2 (ix3 b n k) d) k d rfl rfl]

/-- The scaled scores. -/
theorem v5_eq (b : Fin 4) (q n : Fin 2048) :
    val_main_v5 (F := Ideal) x wq wk (ix3 b q n) = score x wq wk b q n := by
  rw [val_main_v5_apply, val_main_v3_apply, val_main_v4_apply, val_main_cst_apply]
  unfold score
  refine congrArg (· * scale) (Finset.sum_congr rfl fun k _ => ?_)
  rw [idx3_ext (lidx_main_v3 (ix3 b q n) k) b q k rfl rfl rfl, idx3_ext (ridx_main_v3 (ix3 b q n) k) b n k rfl rfl rfl,
    v0_eq, v1_eq]

/-- The row maximum: a maximum with -∞ of the maximum, started from -∞, over the key rows. -/
theorem v8_eq (b : Fin 4) (q : Fin 2048) :
    val_main_v8 (F := Ideal) x wq wk (ix2 b q) = rowMax x wq wk b q := by
  have hR : S4x2048x2048.Reduces [2] S4x2048 := by decide
  rw [val_main_v8_apply, val_main_v7_apply, val_main_cst_1_apply]
  unfold val_main_v6
  rw [Host.reduce_eq_fold_single FloatOps.maximumf _ _ reducesTo_S4x2048x2048_S4x2048_d2 hR h_S_ (ix2 b q)]
  refine (max_fold_self _ negInf _).trans ?_
  unfold rowMax
  refine Finset.fold_congr fun n _ => ?_
  exact (congrArg (val_main_v5 (F := Ideal) x wq wk) (idx3_ext (hR.lift (ix2 b q) n) b q n rfl rfl rfl)).trans
    (v5_eq x wq wk b q n)

/-- The exponentials of the scores less their row maximum. -/
theorem v12_eq (b : Fin 4) (q n : Fin 2048) :
    val_main_v12 (F := Ideal) x wq wk (ix3 b q n) = expo x wq wk b q n := by
  rw [val_main_v12_apply, val_main_v11_apply, val_main_v10_apply, val_main_v9_apply, v5_eq,
    idx2_ext (idx_main_v9 (idx_main_v10 (ix3 b q n))) b q rfl rfl, v8_eq]
  rfl

/-- Their row sums, started from the zero word. -/
theorem v13_eq (b : Fin 4) (q : Fin 2048) :
    val_main_v13 (F := Ideal) x wq wk (ix2 b q) = denom x wq wk b q := by
  rw [val_main_v13_apply, val_main_cst_2_apply]
  unfold denom
  refine (congrArg (· + _) Ideal.ofBits_zero_f32).trans ((zero_add _).trans (Finset.sum_congr rfl fun n _ => ?_))
  rw [idx3_ext (idx_main_v13 (ix2 b q) n) b q n rfl rfl rfl, v12_eq]

/-- The softmax weights. -/
theorem v16_eq (b : Fin 4) (q n : Fin 2048) :
    val_main_v16 (F := Ideal) x wq wk (ix3 b q n) = weight x wq wk b q n := by
  rw [val_main_v16_apply, v12_eq, val_main_v15_apply, val_main_v14_apply,
    idx2_ext (idx_main_v14 (idx_main_v15 (ix3 b q n))) b q rfl rfl, v13_eq]
  rfl

/-- The weighted sum of the value rows. -/
theorem v17_eq (b : Fin 4) (q : Fin 2048) (k : Fin 1024) :
    val_main_v17 (F := Ideal) x wq wk wv (ix3 b q k) = attnAt x wq wk wv b q k := by
  rw [val_main_v17_apply]
  unfold attnAt
  refine Finset.sum_congr rfl fun n _ => ?_
  rw [idx3_ext (lidx_main_v17 (ix3 b q k) n) b q n rfl rfl rfl, idx3_ext (ridx_main_v17 (ix3 b q k) n) b n k rfl rfl rfl,
    v16_eq, v2_eq]

/-- The reference's result is the attention function of its arguments. -/
theorem result_eq : val_main_v17 (F := Ideal) x wq wk wv = attn x wq wk wv := by
  funext i
  obtain ⟨b, q, k, rfl⟩ : ∃ (b : Fin 4) (q : Fin 2048) (k : Fin 1024), i = ix3 b q k := ⟨i 0, i 1, i 2, eq_ix3 i⟩
  exact (v17_eq x wq wk wv b q k).trans (attn_ix3 x wq wk wv b q k).symm

end Cert.ReferenceIdeal.RefValue

end
-- ==== Proof.lean ====
/-
  Fused self-attention against its reference, on the extended reals.

  The kernel computes, per batch, the key and value projections once (at the batch's first query tile) and keeps them
  while it walks the batch's four query tiles; each tile projects its 512 query rows, scores them against all key
  rows, applies the softmax row by row (maximum, exponential, sum, exact division) and multiplies with the value rows.
  The reference does the same with four whole-array products and a softmax over the last axis. Both are the
  function `Cert.Attn.attn` of the four arguments: the kernel by reading the value each grid point leaves (the kept
  projections by induction over the grid, the tile from them) and tiling the result array with the sixteen blocks,
  the reference by reading its operations one at a time. The weights reach the kernel transposed, which only renames
  the summation index; the scale is the same word on both sides; the extra maximum with -∞ the reference takes is
  the identity; no step needs the inputs finite. The kernel as printed and its idealization differ by no rewrite.
-/
import proofs.«173278_j37452114821624_2_alg».proof.Defs
import proofs.«173278_j37452114821624_2_alg».proof.Proof.Gen.Kernel
import proofs.«173278_j37452114821624_2_alg».proof.Proof.Gen.Kernel.Skeleton
import proofs.«173278_j37452114821624_2_alg».proof.Proof.Gen.Kernel.Launch
import proofs.«173278_j37452114821624_2_alg».proof.Proof.Gen.Kernel.Points
import proofs.«173278_j37452114821624_2_alg».proof.Proof.Gen.Kernel.Frame
import proofs.«173278_j37452114821624_2_alg».proof.Proof.Gen.KernelIdeal
import proofs.«173278_j37452114821624_2_alg».proof.Proof.Gen.KernelIdeal.Skeleton
import proofs.«173278_j37452114821624_2_alg».proof.Proof.Gen.KernelIdeal.Launch
import proofs.«173278_j37452114821624_2_alg».proof.Proof.Gen.KernelIdeal.Points
import proofs.«173278_j37452114821624_2_alg».proof.Proof.Gen.KernelIdeal.Frame
import proofs.«173278_j37452114821624_2_alg».proof.Proof.Gen.ReferenceIdeal
import proofs.«173278_j37452114821624_2_alg».proof.Proof.Gen.KernelIdeal.Value
import proofs.«173278_j37452114821624_2_alg».proof.Proof.Gen.ReferenceIdeal.Run
import proofs.«173278_j37452114821624_2_alg».proof.Proof.Gen.ReferenceIdeal.Read
import proofs.«173278_j37452114821624_2_alg».proof.Proof.Gen.Pre_finite_inputs
import proofs.«173278_j37452114821624_2_alg».proof.Proof.AttnRun
import proofs.«173278_j37452114821624_2_alg».proof.Proof.RefAttn
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the attention function of the arguments in
    their result arrays. -/
theorem algebraic : Cert.algebraic_KernelIdeal_ReferenceIdeal := by
  intro m ρ m' ρ' _ hagree
  refine ⟨_, Cert.KernelIdeal.AttnRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
